-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S300x512 : Shape := ⟨2, ![300, 512]⟩
abbrev S512x512 : Shape := ⟨2, ![512, 512]⟩
abbrev S_ : Shape := ⟨0, ![]⟩

class Facts : Prop where
  bcast_S_S300x512 : S_.BroadcastsInDim S300x512 (![] : Fin 0 → Fin S300x512.rank)
  reducesTo_S300x512_S_d0_1 : S300x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : IVec S1024x64 32) (main_arg1 : IVec S1024x64 32) (main_arg2 : FVec F S300x512 .f32) (main_arg3 : FVec F S512x512 .f32) : IVec S_ 1 :=
  let main_v0 : FVec F S300x512 .f32 := Host.absf main_arg2
  let main_cst : FVec F S_ .f32 := constant S_ .f32 0x7F800000#32
  let main_v1 : FVec F S300x512 .f32 := broadcastInDim S300x512 ![] bcast_S_S300x512 main_cst
  let main_v2 : IVec S300x512 1 := cmpf .olt main_v0 main_v1
  let main_c : IVec S_ 1 := constantI S_ 1 1#1
  let main_v3 : IVec S_ 1 := (fun x v => Host.reduce IntOp.andi x v reducesTo_S300x512_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S1024x64 : Shape := ⟨2, ![1024, 64]⟩
abbrev S300x512 : Shape := ⟨2, ![300, 512]⟩
abbrev S512x512 : Shape := ⟨2, ![512, 512]⟩
abbrev S_ : Shape := ⟨0, ![]⟩
abbrev S1024x64x1 : Shape := ⟨3, ![1024, 64, 1]⟩
abbrev S1024x64x512 : Shape := ⟨3, ![1024, 64, 512]⟩
abbrev S32x64x512 : Shape := ⟨3, ![32, 64, 512]⟩
abbrev S32x64 : Shape := ⟨2, ![32, 64]⟩
abbrev S2048x512 : Shape := ⟨2, ![2048, 512]⟩
abbrev S32x64x64 : Shape := ⟨3, ![32, 64, 64]⟩
abbrev S32x1x64 : Shape := ⟨3, ![32, 1, 64]⟩

abbrev nBuf : Space → Nat
  | .hbm => 30
  | .vmem => 9
  | .smem => 0
  | _ => 0

abbrev bufTy : (tb : Table) → Fin (tcTables nBuf tb) → BufTy
  | .hbm, ⟨0, _⟩ => ⟨S1024x64, .i32⟩
  | .hbm, ⟨1, _⟩ => ⟨S1024x64, .i32⟩
  | .hbm, ⟨2, _⟩ => ⟨S300x512, .f32⟩
  | .hbm, ⟨3, _⟩ => ⟨S512x512, .f32⟩
  | .hbm, ⟨4, _⟩ => ⟨S_, .i32⟩
  | .hbm, ⟨5, _⟩ => ⟨S1024x64, .i32⟩
  | .hbm, ⟨6, _⟩ => ⟨S1024x64, .i1⟩
  | .hbm, ⟨7, _⟩ => ⟨S_, .i32⟩
  | .hbm, ⟨8, _⟩ => ⟨S1024x64, .i32⟩
  | .hbm, ⟨9, _⟩ => ⟨S1024x64, .i32⟩
  | .hbm, ⟨10, _⟩ => ⟨S1024x64, .i32⟩
  | .hbm, ⟨11, _⟩ => ⟨S1024x64x1, .i32⟩
  | .hbm, ⟨12, _⟩ => ⟨S1024x64x512, .f32⟩
  | .hbm, ⟨13, _⟩ => ⟨S1024x64x512, .bf16⟩
  | .hbm, ⟨14, _⟩ => ⟨S_, .i32⟩
  | .hbm, ⟨15, _⟩ => ⟨S1024x64, .i32⟩
  | .hbm, ⟨16, _⟩ => ⟨S1024x64, .i1⟩
  | .hbm, ⟨17, _⟩ => ⟨S_, .i32⟩
  | .hbm, ⟨18, _⟩ => ⟨S1024x64, .i32⟩
  | .hbm, ⟨19, _⟩ => ⟨S1024x64, .i32⟩
  | .hbm, ⟨20, _⟩ => ⟨S1024x64, .i32⟩
  | .hbm, ⟨21, _⟩ => ⟨S1024x64x1, .i32⟩
  | .hbm, ⟨22, _⟩ => ⟨S1024x64x512, .f32⟩
  | .hbm, ⟨23, _⟩ => ⟨S1024x64x512, .bf16⟩
  | .hbm, ⟨24, _⟩ => ⟨S_, .i32⟩
  | .hbm, ⟨25, _⟩ => ⟨S1024x64, .i32⟩
  | .hbm, ⟨26, _⟩ => ⟨S1024x64, .i1⟩
  | .hbm, ⟨27, _⟩ => ⟨S1024x64, .f32⟩
  | .hbm, ⟨28, _⟩ => ⟨S512x512, .bf16⟩
  | .hbm, ⟨29, _⟩ => ⟨S1024x64x512, .f32⟩
  | .local _ .vmem, ⟨0, _⟩ => ⟨S32x64x512, .bf16⟩
  | .local _ .vmem, ⟨1, _⟩ => ⟨S32x64x512, .bf16⟩
  | .local _ .vmem, ⟨2, _⟩ => ⟨S32x64x512, .bf16⟩
  | .local _ .vmem, ⟨3, _⟩ => ⟨S32x64x512, .bf16⟩
  | .local _ .vmem, ⟨4, _⟩ => ⟨S32x64, .f32⟩
  | .local _ .vmem, ⟨5, _⟩ => ⟨S32x64, .f32⟩
  | .local _ .vmem, ⟨6, _⟩ => ⟨S512x512, .bf16⟩
  | .local _ .vmem, ⟨7, _⟩ => ⟨S32x64x512, .f32⟩
  | .local _ .vmem, ⟨8, _⟩ => ⟨S32x64x512, .f32⟩
  | _, _ => ⟨S1024x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1024x64 : S_.BroadcastsInDim S1024x64 (![] : Fin 0 → Fin S1024x64.rank)
  bcast_S1024x64_S1024x64x1_0_1 : S1024x64.BroadcastsInDim S1024x64x1 (![0, 1] : Fin 2 → Fin S1024x64x1.rank)
  bitsLt_bf16_f32 : FTy.bits .bf16 < FTy.bits .f32
  inb_S32x64x512_S32x64x512_0_0_0 : ∀ a, (![0, 0, 0] : Fin 3 → Nat) a + S32x64x512.size a ≤ S32x64x512.size a
  h_S32x64x512 : 0 < S32x64x512.numel
  shapeCasts_S32x64x512_S32x64x512 : S32x64x512.ShapeCasts S32x64x512
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S32x64x512_S2048x512 : S32x64x512.ShapeCasts S2048x512
  shapeCasts_S2048x512_S32x64x512 : S2048x512.ShapeCasts S32x64x512
  shapeCasts_S32x64_S32x1x64 : S32x64.ShapeCasts S32x1x64
  broadcasts_S32x1x64_S32x64x64 : S32x1x64.Broadcasts S32x64x64
  gather_S300x512_S1024x64x1_S1024x64x512_2_0_n_n_0_2_1512_wf : GatherDims.WF S300x512 S1024x64x1 S1024x64x512 [2] [0] [] [0] [] 2 ![1, 512]
  dot_S2048x512_S512x512_S2048x512_1_0_0_1_n_n_wf : DotDims.WF S2048x512 S512x512 S2048x512 [1] [0] [0] [1] [] []
  dot_S32x64x512_S32x64x512_S32x64x64_2_2_1_1_0_0_wf : DotDims.WF S32x64x512 S32x64x512 S32x64x64 [2] [2] [1] [1] [0] [0]
  dot_S32x64x64_S32x64x512_S32x64x512_2_1_1_2_0_0_wf : DotDims.WF S32x64x64 S32x64x512 S32x64x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x512.size a ≤ S1024x64x512.size a
  hwx0_0 : ∀ i : grid0.Coords, EltTy.bits .bf16 = 32 ∨ (Rect.block (s := S1024x64x512) S32x64x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64x512.size a ≤ S1024x64x512.size a
  hwx0_1 : ∀ i : grid0.Coords, EltTy.bits .bf16 = 32 ∨ (Rect.block (s := S1024x64x512) S32x64x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S1024x64.size a
  hwx0_2 : ∀ i : grid0.Coords, EltTy.bits .f32 = 32 ∨ (Rect.block (s := S1024x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x64x512.size a ≤ S1024x64x512.size a
  hwx0_4 : ∀ i : grid0.Coords, EltTy.bits .f32 = 32 ∨ (Rect.block (s := S1024x64x512) S32x64x512.size (cc0_transform_4 i) (hinb0_4 i)).WholeWords (EltTy.packing .f32)

variable [Facts₀]

def gather_S300x512_S1024x64x1_S1024x64x512_2_0_n_n_0_2_1512 : GatherDims S300x512 S1024x64x1 S1024x64x512 where
  offsetDims := [2]
  collapsedSliceDims := [0]
  operandBatchingDims := []
  startIndicesBatchingDims := []
  startIndexMap := [0]
  indexVectorDim := 2
  sliceSizes := ![1, 512]
  wf := gather_S300x512_S1024x64x1_S1024x64x512_2_0_n_n_0_2_1512_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S32x64x512_S32x64x512_S32x64x64_2_2_1_1_0_0 : DotDims S32x64x512 S32x64x512 S32x64x64 where
  lhsContracting := [2]
  rhsContracting := [2]
  lhsNonContracting := [1]
  rhsNonContracting := [1]
  lhsBatch := [0]
  rhsBatch := [0]
  wf := dot_S32x64x512_S32x64x512_S32x64x64_2_2_1_1_0_0_wf
def dot_S32x64x64_S32x64x512_S32x64x512_2_1_1_2_0_0 : DotDims S32x64x64 S32x64x512 S32x64x512 where
  lhsContracting := [2]
  rhsContracting := [1]
  lhsNonContracting := [1]
  rhsNonContracting := [2]
  lhsBatch := [0]
  rhsBatch := [0]
  wf := dot_S32x64x64_S32x64x512_S32x64x512_2_1_1_2_0_0_wf

abbrev win0_0 : Pipeline.Window sig grid0 :=
  Pipeline.Window.ofSpec (Memref.whole main_v7) S32x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S32x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S32x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S32x64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x64 : Shape := ⟨2, ![1024, 64]⟩
abbrev S300x512 : Shape := ⟨2, ![300, 512]⟩
abbrev S512x512 : Shape := ⟨2, ![512, 512]⟩
abbrev S_ : Shape := ⟨0, ![]⟩
abbrev S1024x64x1 : Shape := ⟨3, ![1024, 64, 1]⟩
abbrev S1024x64x512 : Shape := ⟨3, ![1024, 64, 512]⟩
abbrev S1024x64x64 : Shape := ⟨3, ![1024, 64, 64]⟩
abbrev S1024x1x64 : Shape := ⟨3, ![1024, 1, 64]⟩

abbrev nBuf : Space → Nat
  | .hbm => 33
  | .vmem => 0
  | .smem => 0
  | _ => 0

abbrev bufTy : (tb : Table) → Fin (tcTables nBuf tb) → BufTy
  | .hbm, ⟨0, _⟩ => ⟨S1024x64, .i32⟩
  | .hbm, ⟨1, _⟩ => ⟨S1024x64, .i32⟩
  | .hbm, ⟨2, _⟩ => ⟨S300x512, .f32⟩
  | .hbm, ⟨3, _⟩ => ⟨S512x512, .f32⟩
  | .hbm, ⟨4, _⟩ => ⟨S_, .i32⟩
  | .hbm, ⟨5, _⟩ => ⟨S1024x64, .i32⟩
  | .hbm, ⟨6, _⟩ => ⟨S1024x64, .i1⟩
  | .hbm, ⟨7, _⟩ => ⟨S_, .i32⟩
  | .hbm, ⟨8, _⟩ => ⟨S1024x64, .i32⟩
  | .hbm, ⟨9, _⟩ => ⟨S1024x64, .i32⟩
  | .hbm, ⟨10, _⟩ => ⟨S1024x64, .i32⟩
  | .hbm, ⟨11, _⟩ => ⟨S1024x64x1, .i32⟩
  | .hbm, ⟨12, _⟩ => ⟨S1024x64x512, .f32⟩
  | .hbm, ⟨13, _⟩ => ⟨S_, .i32⟩
  | .hbm, ⟨14, _⟩ => ⟨S1024x64, .i32⟩
  | .hbm, ⟨15, _⟩ => ⟨S1024x64, .i1⟩
  | .hbm, ⟨16, _⟩ => ⟨S1024x64, .f32⟩
  | .hbm, ⟨17, _⟩ => ⟨S1024x64x512, .f32⟩
  | .hbm, ⟨18, _⟩ => ⟨S1024x64x64, .f32⟩
  | .hbm, ⟨19, _⟩ => ⟨S1024x1x64, .f32⟩
  | .hbm, ⟨20, _⟩ => ⟨S1024x64x64, .f32⟩
  | .hbm, ⟨21, _⟩ => ⟨S1024x64x64, .f32⟩
  | .hbm, ⟨22, _⟩ => ⟨S1024x64x512, .f32⟩
  | .hbm, ⟨23, _⟩ => ⟨S_, .i32⟩
  | .hbm, ⟨24, _⟩ => ⟨S1024x64, .i32⟩
  | .hbm, ⟨25, _⟩ => ⟨S1024x64, .i1⟩
  | .hbm, ⟨26, _⟩ => ⟨S_, .i32⟩
  | .hbm, ⟨27, _⟩ => ⟨S1024x64, .i32⟩
  | .hbm, ⟨28, _⟩ => ⟨S1024x64, .i32⟩
  | .hbm, ⟨29, _⟩ => ⟨S1024x64, .i32⟩
  | .hbm, ⟨30, _⟩ => ⟨S1024x64x1, .i32⟩
  | .hbm, ⟨31, _⟩ => ⟨S1024x64x512, .f32⟩
  | .hbm, ⟨32, _⟩ => ⟨S1024x64x512, .f32⟩
  | _, _ => ⟨S1024x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S_S1024x64 : S_.BroadcastsInDim S1024x64 (![] : Fin 0 → Fin S1024x64.rank)
  bcast_S1024x64_S1024x64x1_0_1 : S1024x64.BroadcastsInDim S1024x64x1 (![0, 1] : Fin 2 → Fin S1024x64x1.rank)
  bcast_S1024x64_S1024x1x64_0_2 : S1024x64.BroadcastsInDim S1024x1x64 (![0, 2] : Fin 2 → Fin S1024x1x64.rank)
  bcast_S1024x1x64_S1024x64x64_0_1_2 : S1024x1x64.BroadcastsInDim S1024x64x64 (![0, 1, 2] : Fin 3 → Fin S1024x64x64.rank)
  gather_S300x512_S1024x64x1_S1024x64x512_2_0_n_n_0_2_1512_wf : GatherDims.WF S300x512 S1024x64x1 S1024x64x512 [2] [0] [] [0] [] 2 ![1, 512]
  dot_S1024x64x512_S512x512_S1024x64x512_2_0_01_1_n_n_wf : DotDims.WF S1024x64x512 S512x512 S1024x64x512 [2] [0] [0, 1] [1] [] []
  dot_S1024x64x512_S1024x64x512_S1024x64x64_2_2_1_1_0_0_wf : DotDims.WF S1024x64x512 S1024x64x512 S1024x64x64 [2] [2] [1] [1] [0] [0]
  dot_S1024x64x64_S1024x64x512_S1024x64x512_2_1_1_2_0_0_wf : DotDims.WF S1024x64x64 S1024x64x512 S1024x64x512 [2] [1] [1] [2] [0] [0]

variable [Facts₀]

def gather_S300x512_S1024x64x1_S1024x64x512_2_0_n_n_0_2_1512 : GatherDims S300x512 S1024x64x1 S1024x64x512 where
  offsetDims := [2]
  collapsedSliceDims := [0]
  operandBatchingDims := []
  startIndicesBatchingDims := []
  startIndexMap := [0]
  indexVectorDim := 2
  sliceSizes := ![1, 512]
  wf := gather_S300x512_S1024x64x1_S1024x64x512_2_0_n_n_0_2_1512_wf
def dot_S1024x64x512_S512x512_S1024x64x512_2_0_01_1_n_n : DotDims S1024x64x512 S512x512 S1024x64x512 where
  lhsContracting := [2]
  rhsContracting := [0]
  lhsNonContracting := [0, 1]
  rhsNonContracting := [1]
  lhsBatch := []
  rhsBatch := []
  wf := dot_S1024x64x512_S512x512_S1024x64x512_2_0_01_1_n_n_wf
def dot_S1024x64x512_S1024x64x512_S1024x64x64_2_2_1_1_0_0 : DotDims S1024x64x512 S1024x64x512 S1024x64x64 where
  lhsContracting := [2]
  rhsContracting := [2]
  lhsNonContracting := [1]
  rhsNonContracting := [1]
  lhsBatch := [0]
  rhsBatch := [0]
  wf := dot_S1024x64x512_S1024x64x512_S1024x64x64_2_2_1_1_0_0_wf
def dot_S1024x64x64_S1024x64x512_S1024x64x512_2_1_1_2_0_0 : DotDims S1024x64x64 S1024x64x512 S1024x64x512 where
  lhsContracting := [2]
  rhsContracting := [1]
  lhsNonContracting := [1]
  rhsNonContracting := [2]
  lhsBatch := [0]
  rhsBatch := [0]
  wf := dot_S1024x64x64_S1024x64x512_S1024x64x512_2_1_1_2_0_0_wf

class Facts : Prop extends Facts₀ where

variable [Facts]
-- ==== Proof.Spec.lean ====
/-
  The mathematics both programs compute, on the extended reals, one batch at a time.

  A batch is a 64 × 512 matrix `x` of embedded tokens. Its rows are projected once by the 512 × 512 weight
  `w` — the projection serves as query, key and value alike —, every query row is scored against every key row by
  the inner product of their projections, the score is multiplied by the key's mask entry `μ k` (there is no
  softmax), and the masked scores weigh the projected rows; a second embedded matrix `y` is added as a residual:

      out q d = y q d + ∑ k, ((∑ e, P q e * P k e) * μ k) * P k d,      P s e = ∑ d, x s d * w d e.

  Every sum is a finite sum in the commutative monoid of extended reals, so no order or grouping of the
  additions is part of the statement. `attn` is this function laid over the whole [1024, 64, 512] array, batch
  `i 0` of the result depending on batch `i 0` of the operands only.
-/
import Idealize.ShloMosaic.PureOps.Ideal
import Idealize.ShloMosaic.Lib.ValueIdx

noncomputable section

open scoped BigOperators

namespace Cert.Attn

open Idealize.ShloMosaic Idealize.ShloMosaic.ValueIdx

/-- Row `s` of the batch `x` times the weight `w`, at column `e`. -/
def proj (x : Fin 64 → Fin 512 → EReal) (w : Fin 512 → Fin 512 → EReal) (s : Fin 64) (e : Fin 512) : EReal :=
  ∑ d : Fin 512, x s d * w d e

/-- The score of query row `q` against key row `k`: the inner product of the two projected rows, times the
    key's mask entry. -/
def score (x : Fin 64 → Fin 512 → EReal) (w : Fin 512 → Fin 512 → EReal) (μ : Fin 64 → EReal) (q k : Fin 64) : EReal :=
  (∑ e : Fin 512, proj x w q e * proj x w k e) * μ k

/-- One batch's result at row `q`, column `d`: the residual plus the masked scores applied to the projected rows. -/
def attnRow (x y : Fin 64 → Fin 512 → EReal) (μ : Fin 64 → EReal) (w : Fin 512 → Fin 512 → EReal)
    (q : Fin 64) (d : Fin 512) : EReal :=
  y q d + ∑ k : Fin 64, score x w μ q k * proj x w k d

/-- The result at batch `b`, row `q`, column `d` of whole arrays: batch `b` of `A0` (projected), of `A1` (the
    residual) and of the mask `A2`, and the weight `A3`. -/
def attnAt (A0 A1 : (⟨3, ![1024, 64, 512]⟩ : Shape).Idx → EReal) (A2 : (⟨2, ![1024, 64]⟩ : Shape).Idx → EReal)
    (A3 : (⟨2, ![512, 512]⟩ : Shape).Idx → EReal) (b : Fin 1024) (q : Fin 64) (d : Fin 512) : EReal :=
  attnRow (fun s e => A0 (ix3 b s e)) (fun s e => A1 (ix3 b s e)) (fun k => A2 (ix2 b k)) (fun e f => A3 (ix2 e f)) q d

/-- The whole result array, index by index. -/
def attn (A0 A1 : (⟨3, ![1024, 64, 512]⟩ : Shape).Idx → EReal) (A2 : (⟨2, ![1024, 64]⟩ : Shape).Idx → EReal)
    (A3 : (⟨2, ![512, 512]⟩ : Shape).Idx → EReal) : (⟨3, ![1024, 64, 512]⟩ : Shape).Idx → EReal :=
  fun i => attnAt A0 A1 A2 A3 (i 0) (i 1) (i 2)

theorem attn_ix3 (A0 A1 : (⟨3, ![1024, 64, 512]⟩ : Shape).Idx → EReal) (A2 : (⟨2, ![1024, 64]⟩ : Shape).Idx → EReal)
    (A3 : (⟨2, ![512, 512]⟩ : Shape).Idx → EReal) (b : Fin 1024) (q : Fin 64) (d : Fin 512) :
    attn A0 A1 A2 A3 (ix3 b q d) = attnAt A0 A1 A2 A3 b q d := rfl

/-- A batch's result depends on the operands through their entries only. -/
theorem attnRow_congr {x x' y y' : Fin 64 → Fin 512 → EReal} {μ μ' : Fin 64 → EReal} {w w' : Fin 512 → Fin 512 → EReal}
    (hx : ∀ s e, x s e = x' s e) (hy : ∀ s e, y s e = y' s e) (hμ : ∀ k, μ k = μ' k) (hw : ∀ e f, w e f = w' e f)
    (q : Fin 64) (d : Fin 512) : attnRow x y μ w q d = attnRow x' y' μ' w' q d := by
  have ex : x = x' := funext fun s => funext fun e => hx s e
  have ey : y = y' := funext fun s => funext fun e => hy s e
  have eμ : μ = μ' := funext hμ
  have ew : w = w' := funext fun e => funext fun f => hw e f
  rw [ex, ey, eμ, ew]

end Cert.Attn

end
-- ==== Proof.BodyValue.lean ====
/-
  The kernel body's one stored value, read at an index of the block.

  The body loads a block of 32 batches of the two embedded arrays (`x0`, the tokens that are projected; `x1`, the
  residual), the block's 32 × 64 mask entries `x2` and the whole weight `x3`. It flattens the block to 2048 rows,
  multiplies by the weight into a zero accumulator and folds the rows back into batches: row `b * 64 + s` of the
  flat product is row `s` of batch `b`, so the folded product at `(b, s, e)` is `∑ d, x0 (b, s, d) * x3 (d, e)`, the
  projection `Attn.proj` of batch `b`. Two batched products follow — the scores `∑ e, P (b, q, e) * P (b, k, e)`,
  multiplied by the mask row of the batch broadcast over the query axis, and the masked scores applied to the
  projected rows — and the residual is added. On the extended reals a change of float format is the identity and a
  product into the zero accumulator is the plain sum, so at `(b, q, d)` the stored value is `Attn.attnRow` of batch
  `b` of the loaded blocks.
-/
import proofs.«146319_j87522843559291_1_alg».proof.Proof.Gen.KernelIdeal.Skeleton
import proofs.«146319_j87522843559291_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Attn

/-! ## The flat product: 2048 rows against the weight -/

theorem flat_lhs_0 (j : S2048x512.Idx) (q : dot_S2048x512_S512x512_S2048x512_1_0_0_1_n_n.contr.Idx) :
    (dot_S2048x512_S512x512_S2048x512_1_0_0_1_n_n.lhsIdx j q 0).val = (j 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem flat_lhs_1 (j : S2048x512.Idx) (q : dot_S2048x512_S512x512_S2048x512_1_0_0_1_n_n.contr.Idx) :
    (dot_S2048x512_S512x512_S2048x512_1_0_0_1_n_n.lhsIdx j q 1).val = (q ⟨0, by decide⟩).val :=
  dot_S2048x512_S512x512_S2048x512_1_0_0_1_n_n.lhsIdx_val_of_single rfl j q
theorem flat_rhs_0 (j : S2048x512.Idx) (q : dot_S2048x512_S512x512_S2048x512_1_0_0_1_n_n.contr.Idx) :
    (dot_S2048x512_S512x512_S2048x512_1_0_0_1_n_n.rhsIdx j q 0).val = (q ⟨0, by decide⟩).val :=
  dot_S2048x512_S512x512_S2048x512_1_0_0_1_n_n.rhsIdx_val_of_single rfl j q
theorem flat_rhs_1 (j : S2048x512.Idx) (q : dot_S2048x512_S512x512_S2048x512_1_0_0_1_n_n.contr.Idx) :
    (dot_S2048x512_S512x512_S2048x512_1_0_0_1_n_n.rhsIdx j q 1).val = (j 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The flat product into the zero accumulator at row `r`, column `e`: the sum over the contracted axis. -/
theorem flat_apply (L : FVec Ideal S2048x512 .bf16) (R : FVec Ideal S512x512 .bf16) (r : Fin 2048) (e : Fin 512) :
    matmul dot_S2048x512_S512x512_S2048x512_1_0_0_1_n_n none L R (constant (F := Ideal) S2048x512 .f32 0x00000000#32) (ix2 r e)
      = ∑ k : Fin 512, L (ix2 r k) * R (ix2 k e) := by
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 r e) ((contrEquiv1 dot_S2048x512_S512x512_S2048x512_1_0_0_1_n_n 512 rfl rfl).symm k) = ix2 r k := funext fun a => Fin.ext (by
    match a with
    | ⟨0, _⟩ => exact flat_lhs_0 _ _
    | ⟨1, _⟩ => exact (flat_lhs_1 _ _).trans hk)
  have er : dot_S2048x512_S512x512_S2048x512_1_0_0_1_n_n.rhsIdx (ix2 r e) ((contrEquiv1 dot_S2048x512_S512x512_S2048x512_1_0_0_1_n_n 512 rfl rfl).symm k) = ix2 k e := funext fun a => Fin.ext (by
    match a with
    | ⟨0, _⟩ => exact (flat_rhs_0 _ _).trans hk
    | ⟨1, _⟩ => exact flat_rhs_1 _ _)
  rw [el, er]

/-! ## The scores: query rows against key rows, batch by batch -/

theorem scores_lhs_0 (j : S32x64x64.Idx) (q : dot_S32x64x512_S32x64x512_S32x64x64_2_2_1_1_0_0.contr.Idx) :
    (dot_S32x64x512_S32x64x512_S32x64x64_2_2_1_1_0_0.lhsIdx j q 0).val = (j 0).val := by
  unfold DotDims.lhsIdx
  rw [dif_pos (show (0 : Fin S32x64x512.rank) ∈ dot_S32x64x512_S32x64x512_S32x64x64_2_2_1_1_0_0.lhsBatch by decide)]
  rfl
theorem scores_lhs_1 (j : S32x64x64.Idx) (q : dot_S32x64x512_S32x64x512_S32x64x64_2_2_1_1_0_0.contr.Idx) :
    (dot_S32x64x512_S32x64x512_S32x64x64_2_2_1_1_0_0.lhsIdx j q 1).val = (j 1).val := by
  unfold DotDims.lhsIdx
  rw [dif_neg (show ¬(1 : Fin S32x64x512.rank) ∈ dot_S32x64x512_S32x64x512_S32x64x64_2_2_1_1_0_0.lhsBatch by decide), dif_pos (show (1 : Fin S32x64x512.rank) ∈ dot_S32x64x512_S32x64x512_S32x64x64_2_2_1_1_0_0.lhsNonContracting by decide)]
  rfl
theorem scores_lhs_2 (j : S32x64x64.Idx) (q : dot_S32x64x512_S32x64x512_S32x64x64_2_2_1_1_0_0.contr.Idx) :
    (dot_S32x64x512_S32x64x512_S32x64x64_2_2_1_1_0_0.lhsIdx j q 2).val = (q ⟨0, by decide⟩).val :=
  dot_S32x64x512_S32x64x512_S32x64x64_2_2_1_1_0_0.lhsIdx_val_of_single rfl j q
theorem scores_rhs_0 (j : S32x64x64.Idx) (q : dot_S32x64x512_S32x64x512_S32x64x64_2_2_1_1_0_0.contr.Idx) :
    (dot_S32x64x512_S32x64x512_S32x64x64_2_2_1_1_0_0.rhsIdx j q 0).val = (j 0).val := by
  unfold DotDims.rhsIdx
  rw [dif_pos (show (0 : Fin S32x64x512.rank) ∈ dot_S32x64x512_S32x64x512_S32x64x64_2_2_1_1_0_0.rhsBatch by decide)]
  rfl
theorem scores_rhs_1 (j : S32x64x64.Idx) (q : dot_S32x64x512_S32x64x512_S32x64x64_2_2_1_1_0_0.contr.Idx) :
    (dot_S32x64x512_S32x64x512_S32x64x64_2_2_1_1_0_0.rhsIdx j q 1).val = (j 2).val := by
  unfold DotDims.rhsIdx
  rw [dif_neg (show ¬(1 : Fin S32x64x512.rank) ∈ dot_S32x64x512_S32x64x512_S32x64x64_2_2_1_1_0_0.rhsBatch by decide), dif_pos (show (1 : Fin S32x64x512.rank) ∈ dot_S32x64x512_S32x64x512_S32x64x64_2_2_1_1_0_0.rhsNonContracting by decide)]
  rfl
theorem scores_rhs_2 (j : S32x64x64.Idx) (q : dot_S32x64x512_S32x64x512_S32x64x64_2_2_1_1_0_0.contr.Idx) :
    (dot_S32x64x512_S32x64x512_S32x64x64_2_2_1_1_0_0.rhsIdx j q 2).val = (q ⟨0, by decide⟩).val :=
  dot_S32x64x512_S32x64x512_S32x64x64_2_2_1_1_0_0.rhsIdx_val_of_single rfl j q

/-- The batched product of query rows with key rows into the zero accumulator at `(b, q, k)`: the inner product
    of row `q` and row `k` of batch `b`. -/
theorem scores_apply (L R : FVec Ideal S32x64x512 .bf16) (b : Fin 32) (q k : Fin 64) :
    matmul dot_S32x64x512_S32x64x512_S32x64x64_2_2_1_1_0_0 none L R (constant (F := Ideal) S32x64x64 .f32 0x00000000#32) (ix3 b q k)
      = ∑ e : Fin 512, L (ix3 b q e) * R (ix3 b k e) := by
  simp only [matmul]
  rw [Ideal.matmul_constant_zero_apply, ← Equiv.sum_comp (contrEquiv1 dot_S32x64x512_S32x64x512_S32x64x64_2_2_1_1_0_0 512 rfl rfl).symm]
  refine Finset.sum_congr rfl fun e _ => ?_
  have he := contrEquiv1_symm_val dot_S32x64x512_S32x64x512_S32x64x64_2_2_1_1_0_0 512 rfl rfl e
  have el : dot_S32x64x512_S32x64x512_S32x64x64_2_2_1_1_0_0.lhsIdx (ix3 b q k) ((contrEquiv1 dot_S32x64x512_S32x64x512_S32x64x64_2_2_1_1_0_0 512 rfl rfl).symm e) = ix3 b q e := funext fun a => Fin.ext (by
    match a with
    | ⟨0, _⟩ => exact scores_lhs_0 _ _
    | ⟨1, _⟩ => exact scores_lhs_1 _ _
    | ⟨2, _⟩ => exact (scores_lhs_2 _ _).trans he)
  have er : dot_S32x64x512_S32x64x512_S32x64x64_2_2_1_1_0_0.rhsIdx (ix3 b q k) ((contrEquiv1 dot_S32x64x512_S32x64x512_S32x64x64_2_2_1_1_0_0 512 rfl rfl).symm e) = ix3 b k e := funext fun a => Fin.ext (by
    match a with
    | ⟨0, _⟩ => exact scores_rhs_0 _ _
    | ⟨1, _⟩ => exact scores_rhs_1 _ _
    | ⟨2, _⟩ => exact (scores_rhs_2 _ _).trans he)
  rw [el, er]

/-! ## The weighted rows: masked scores against the projected rows, batch by batch -/

theorem mix_lhs_0 (j : S32x64x512.Idx) (q : dot_S32x64x64_S32x64x512_S32x64x512_2_1_1_2_0_0.contr.Idx) :
    (dot_S32x64x64_S32x64x512_S32x64x512_2_1_1_2_0_0.lhsIdx j q 0).val = (j 0).val := by
  unfold DotDims.lhsIdx
  rw [dif_pos (show (0 : Fin S32x64x64.rank) ∈ dot_S32x64x64_S32x64x512_S32x64x512_2_1_1_2_0_0.lhsBatch by decide)]
  rfl
theorem mix_lhs_1 (j : S32x64x512.Idx) (q : dot_S32x64x64_S32x64x512_S32x64x512_2_1_1_2_0_0.contr.Idx) :
    (dot_S32x64x64_S32x64x512_S32x64x512_2_1_1_2_0_0.lhsIdx j q 1).val = (j 1).val := by
  unfold DotDims.lhsIdx
  rw [dif_neg (show ¬(1 : Fin S32x64x64.rank) ∈ dot_S32x64x64_S32x64x512_S32x64x512_2_1_1_2_0_0.lhsBatch by decide), dif_pos (show (1 : Fin S32x64x64.rank) ∈ dot_S32x64x64_S32x64x512_S32x64x512_2_1_1_2_0_0.lhsNonContracting by decide)]
  rfl
theorem mix_lhs_2 (j : S32x64x512.Idx) (q : dot_S32x64x64_S32x64x512_S32x64x512_2_1_1_2_0_0.contr.Idx) :
    (dot_S32x64x64_S32x64x512_S32x64x512_2_1_1_2_0_0.lhsIdx j q 2).val = (q ⟨0, by decide⟩).val :=
  dot_S32x64x64_S32x64x512_S32x64x512_2_1_1_2_0_0.lhsIdx_val_of_single rfl j q
theorem mix_rhs_0 (j : S32x64x512.Idx) (q : dot_S32x64x64_S32x64x512_S32x64x512_2_1_1_2_0_0.contr.Idx) :
    (dot_S32x64x64_S32x64x512_S32x64x512_2_1_1_2_0_0.rhsIdx j q 0).val = (j 0).val := by
  unfold DotDims.rhsIdx
  rw [dif_pos (show (0 : Fin S32x64x512.rank) ∈ dot_S32x64x64_S32x64x512_S32x64x512_2_1_1_2_0_0.rhsBatch by decide)]
  rfl
theorem mix_rhs_1 (j : S32x64x512.Idx) (q : dot_S32x64x64_S32x64x512_S32x64x512_2_1_1_2_0_0.contr.Idx) :
    (dot_S32x64x64_S32x64x512_S32x64x512_2_1_1_2_0_0.rhsIdx j q 1).val = (q ⟨0, by decide⟩).val :=
  dot_S32x64x64_S32x64x512_S32x64x512_2_1_1_2_0_0.rhsIdx_val_of_single rfl j q
theorem mix_rhs_2 (j : S32x64x512.Idx) (q : dot_S32x64x64_S32x64x512_S32x64x512_2_1_1_2_0_0.contr.Idx) :
    (dot_S32x64x64_S32x64x512_S32x64x512_2_1_1_2_0_0.rhsIdx j q 2).val = (j 2).val := by
  unfold DotDims.rhsIdx
  rw [dif_neg (show ¬(2 : Fin S32x64x512.rank) ∈ dot_S32x64x64_S32x64x512_S32x64x512_2_1_1_2_0_0.rhsBatch by decide), dif_pos (show (2 : Fin S32x64x512.rank) ∈ dot_S32x64x64_S32x64x512_S32x64x512_2_1_1_2_0_0.rhsNonContracting by decide)]
  rfl

/-- The batched product of score rows with value rows into the zero accumulator at `(b, q, d)`: the sum over
    the key rows `k` of batch `b`. -/
theorem mix_apply (L : FVec Ideal S32x64x64 .bf16) (R : FVec Ideal S32x64x512 .bf16) (b : Fin 32) (q : Fin 64) (d : Fin 512) :
    matmul dot_S32x64x64_S32x64x512_S32x64x512_2_1_1_2_0_0 none L R (constant (F := Ideal) S32x64x512 .f32 0x00000000#32) (ix3 b q d)
      = ∑ k : Fin 64, L (ix3 b q k) * R (ix3 b k d) := by
  simp only [matmul]
  rw [Ideal.matmul_constant_zero_apply, ← Equiv.sum_comp (contrEquiv1 dot_S32x64x64_S32x64x512_S32x64x512_2_1_1_2_0_0 64 rfl rfl).symm]
  refine Finset.sum_congr rfl fun k _ => ?_
  have hk := contrEquiv1_symm_val dot_S32x64x64_S32x64x512_S32x64x512_2_1_1_2_0_0 64 rfl rfl k
  have el : dot_S32x64x64_S32x64x512_S32x64x512_2_1_1_2_0_0.lhsIdx (ix3 b q d) ((contrEquiv1 dot_S32x64x64_S32x64x512_S32x64x512_2_1_1_2_0_0 64 rfl rfl).symm k) = ix3 b q k := funext fun a => Fin.ext (by
    match a with
    | ⟨0, _⟩ => exact mix_lhs_0 _ _
    | ⟨1, _⟩ => exact mix_lhs_1 _ _
    | ⟨2, _⟩ => exact (mix_lhs_2 _ _).trans hk)
  have er : dot_S32x64x64_S32x64x512_S32x64x512_2_1_1_2_0_0.rhsIdx (ix3 b q d) ((contrEquiv1 dot_S32x64x64_S32x64x512_S32x64x512_2_1_1_2_0_0 64 rfl rfl).symm k) = ix3 b k d := funext fun a => Fin.ext (by
    match a with
    | ⟨0, _⟩ => exact mix_rhs_0 _ _
    | ⟨1, _⟩ => exact (mix_rhs_1 _ _).trans hk
    | ⟨2, _⟩ => exact mix_rhs_2 _ _)
  rw [el, er]

/-! ## The changes of layout -/

/-- Row `b * 64 + s` of the block flattened to 2048 rows is row `s` of batch `b`. -/
theorem flatten_apply {α : Type} (x : S32x64x512.Idx → α) (h : S32x64x512.ShapeCasts S2048x512)
    (b : Fin 32) (s : Fin 64) (d : Fin 512) (r : Fin 2048) (hr : r.val = b.val * 64 + s.val) :
    shapeCast S2048x512 x h (ix2 r d) = x (ix3 b s d) :=
  shapeCast_apply x h _ _ (by
    rw [Shape.rowMajor_val_three, Shape.rowMajor_val_two]
    show (b.val * 64 + s.val) * 512 + d.val = r.val * 512 + d.val
    rw [hr])

/-- Row `s` of batch `b` of the flat rows folded back into batches is flat row `b * 64 + s`. -/
theorem fold_apply {α : Type} (v : S2048x512.Idx → α) (h : S2048x512.ShapeCasts S32x64x512)
    (b : Fin 32) (s : Fin 64) (e : Fin 512) (r : Fin 2048) (hr : r.val = b.val * 64 + s.val) :
    shapeCast S32x64x512 v h (ix3 b s e) = v (ix2 r e) :=
  shapeCast_apply v h _ _ (by
    rw [Shape.rowMajor_val_three, Shape.rowMajor_val_two]
    show r.val * 512 + e.val = (b.val * 64 + s.val) * 512 + e.val
    rw [hr])

/-- The block's mask with a unit query axis put in: at `(b, 0, k)` the entry `(b, k)`. -/
theorem maskRow_apply {α : Type} (x : S32x64.Idx → α) (h : S32x64.ShapeCasts S32x1x64) (b : Fin 32) (u : Fin 1) (k : Fin 64) :
    shapeCast S32x1x64 x h (ix3 b u k) = x (ix2 b k) :=
  shapeCast_apply x h _ _ (by
    have hu : u.val = 0 := by omega
    rw [Shape.rowMajor_val_three, Shape.rowMajor_val_two]
    show b.val * 64 + k.val = (b.val * 1 + u.val) * 64 + k.val
    rw [hu]; omega)

/-- That row broadcast over the 64 query rows: at `(b, q, k)` the entry `(b, 0, k)`. -/
theorem maskBcast_apply {α : Type} (x : S32x1x64.Idx → α) (h : S32x1x64.Broadcasts S32x64x64) (b : Fin 32) (q k : Fin 64) :
    broadcastTo S32x64x64 x h (ix3 b q k) = x (ix3 b (0 : Fin 1) k) :=
  broadcastTo_apply x h _ _ (fun a => match a with
    | ⟨0, _⟩ => by show b.val = if (32 : Nat) = 1 then 0 else b.val; rw [if_neg (by decide)]
    | ⟨1, _⟩ => by show 0 = if (1 : Nat) = 1 then 0 else q.val; rw [if_pos rfl]
    | ⟨2, _⟩ => by show k.val = if (64 : Nat) = 1 then 0 else k.val; rw [if_neg (by decide)])

/-! ## The stored value -/

/-- The projected rows of the block as the body computes them: flatten, multiply into zero, fold back, narrow. -/
def projBlock (x0 : FVec Ideal S32x64x512 .bf16) (x3 : FVec Ideal S512x512 .bf16) : FVec Ideal S32x64x512 .bf16 :=
  truncf .bf16 (shapeCast S32x64x512 (matmul dot_S2048x512_S512x512_S2048x512_1_0_0_1_n_n none
      (shapeCast S2048x512 (shapeCast S32x64x512 x0 shapeCasts_S32x64x512_S32x64x512) shapeCasts_S32x64x512_S2048x512)
      (shapeCast S512x512 x3 shapeCasts_S512x512_S512x512) (constant (F := Ideal) S2048x512 .f32 0x00000000#32))
    shapeCasts_S2048x512_S32x64x512) bitsLt_bf16_f32

/-- At `(b, s, e)` they are the projection of batch `b` of the block. -/
theorem projBlock_apply (x0 : FVec Ideal S32x64x512 .bf16) (x3 : FVec Ideal S512x512 .bf16) (b : Fin 32) (s : Fin 64) (e : Fin 512) :
    projBlock x0 x3 (ix3 b s e) = proj (fun s d => x0 (ix3 b s d)) (fun d f => x3 (ix2 d f)) s e := by
  have hr : b.val * 64 + s.val < 2048 := by omega
  unfold projBlock
  rw [shapeCast_self, shapeCast_self]
  refine (truncf_apply _ bitsLt_bf16_f32 (ix3 b s e)).trans ?_
  refine (fold_apply _ _ b s e ⟨b.val * 64 + s.val, hr⟩ rfl).trans ?_
  refine (flat_apply _ _ _ e).trans ?_
  unfold proj
  refine Finset.sum_congr rfl fun d _ => ?_
  rw [flatten_apply x0 _ b s d ⟨b.val * 64 + s.val, hr⟩ rfl]

/-- The body's stored value is the residual plus the masked scores applied to the projected rows. -/
theorem pay_eq (x0 x1 : Vec Ideal S32x64x512 .bf16) (x2 : Vec Ideal S32x64 .f32) (x3 : Vec Ideal S512x512 .bf16) :
    k0_pay1 x0 x1 x2 x3
      = addf (extf .f32 (shapeCast S32x64x512 x1 shapeCasts_S32x64x512_S32x64x512) bitsLt_bf16_f32)
          (matmul dot_S32x64x64_S32x64x512_S32x64x512_2_1_1_2_0_0 none
            (truncf .bf16 (mulf (matmul dot_S32x64x512_S32x64x512_S32x64x64_2_2_1_1_0_0 none (projBlock x0 x3) (projBlock x0 x3) (constant (F := Ideal) S32x64x64 .f32 0x00000000#32))
              (broadcastTo S32x64x64 (shapeCast S32x1x64 (shapeCast S32x64 x2 shapeCasts_S32x64_S32x64) shapeCasts_S32x64_S32x1x64) broadcasts_S32x1x64_S32x64x64)) bitsLt_bf16_f32)
            (projBlock x0 x3) (constant (F := Ideal) S32x64x512 .f32 0x00000000#32)) := rfl

/-- THE STORED VALUE AT AN INDEX: at batch `b` of the block, row `q`, column `d`, the one-batch function of
    batch `b` of the loaded blocks. -/
theorem pay_apply (x0 x1 : Vec Ideal S32x64x512 .bf16) (x2 : Vec Ideal S32x64 .f32) (x3 : Vec Ideal S512x512 .bf16)
    (b : Fin 32) (q : Fin 64) (d : Fin 512) :
    k0_pay1 x0 x1 x2 x3 (ix3 b q d)
      = attnRow (fun s e => x0 (ix3 b s e)) (fun s e => x1 (ix3 b s e)) (fun k => x2 (ix2 b k)) (fun e f => x3 (ix2 e f)) q d := by
  rw [pay_eq, shapeCast_self, shapeCast_self]
  refine (addf_apply _ _ (ix3 b q d)).trans ?_
  rw [extf_apply]
  unfold attnRow
  refine congrArg (x1 (ix3 b q d) + ·) ?_
  refine (mix_apply _ _ b q d).trans ?_
  refine Finset.sum_congr rfl fun k _ => ?_
  rw [projBlock_apply, truncf_apply, mulf_apply, scores_apply, maskBcast_apply, maskRow_apply]
  unfold score
  refine congrArg (· * proj (fun s d => x0 (ix3 b s d)) (fun d f => x3 (ix2 d f)) k d) ?_
  refine congrArg (· * x2 (ix2 b k)) ?_
  refine Finset.sum_congr rfl fun e _ => ?_
  rw [projBlock_apply, projBlock_apply]

/-- THE STORED VALUE OF A BLOCK OF THE WHOLE ARRAYS. When the loaded blocks are batches `T * 32 … T * 32 + 31` of
    whole arrays `A0`, `A1` (embedded tokens), `A2` (mask) and the loaded weight is `A3`, the body's value at
    the block index `y` is the whole-array function at the array index `i` that `y` sits at: batch `T * 32 + y 0`,
    the same row and column. A batch of the result depends on that batch of the operands only. -/
theorem pay_block (x0 x1 : Vec Ideal S32x64x512 .bf16) (x2 : Vec Ideal S32x64 .f32) (x3 : Vec Ideal S512x512 .bf16)
    (A0 A1 : (⟨3, ![1024, 64, 512]⟩ : Shape).Idx → EReal) (A2 : (⟨2, ![1024, 64]⟩ : Shape).Idx → EReal)
    (A3 : (⟨2, ![512, 512]⟩ : Shape).Idx → EReal) (T : Nat)
    (h0 : ∀ (b : Fin 32) (s : Fin 64) (d : Fin 512) (j : (⟨3, ![1024, 64, 512]⟩ : Shape).Idx),
      (j 0).val = T * 32 + b.val → (j 1).val = s.val → (j 2).val = d.val → x0 (ix3 b s d) = A0 j)
    (h1 : ∀ (b : Fin 32) (s : Fin 64) (d : Fin 512) (j : (⟨3, ![1024, 64, 512]⟩ : Shape).Idx),
      (j 0).val = T * 32 + b.val → (j 1).val = s.val → (j 2).val = d.val → x1 (ix3 b s d) = A1 j)
    (h2 : ∀ (b : Fin 32) (k : Fin 64) (j : (⟨2, ![1024, 64]⟩ : Shape).Idx),
      (j 0).val = T * 32 + b.val → (j 1).val = k.val → x2 (ix2 b k) = A2 j)
    (h3 : ∀ (e f : Fin 512) (j : (⟨2, ![512, 512]⟩ : Shape).Idx),
      (j 0).val = e.val → (j 1).val = f.val → x3 (ix2 e f) = A3 j)
    (y : S32x64x512.Idx) (i : (⟨3, ![1024, 64, 512]⟩ : Shape).Idx)
    (hi0 : (i 0).val = T * 32 + (y 0).val) (hi1 : (i 1).val = (y 1).val) (hi2 : (i 2).val = (y 2).val) :
    k0_pay1 x0 x1 x2 x3 y = attn A0 A1 A2 A3 i := by
  obtain ⟨b, q, d, rfl⟩ : ∃ (b : Fin 32) (q : Fin 64) (d : Fin 512), y = ix3 b q d := ⟨y 0, y 1, y 2, eq_ix3 y⟩
  obtain ⟨B, Q, D, rfl⟩ : ∃ (B : Fin 1024) (Q : Fin 64) (D : Fin 512), i = ix3 B Q D := ⟨i 0, i 1, i 2, eq_ix3 i⟩
  have hB : B.val = T * 32 + b.val := hi0
  obtain rfl : Q = q := Fin.ext hi1
  obtain rfl : D = d := Fin.ext hi2
  rw [pay_apply, attn_ix3]
  unfold attnAt
  exact attnRow_congr (fun s e => h0 b s e _ hB rfl rfl) (fun s e => h1 b s e _ hB rfl rfl)
    (fun k => h2 b k _ hB rfl) (fun e f => h3 e f _ rfl rfl) Q D

end Cert.KernelIdeal.Body

end
-- ==== Proof.Entry.lean ====
/-
  What the kernel's region finds in its operand arrays.

  Before the one region runs, the host gathers the rows of the embedding table at the French and at the English
  word ids (a negative id first moved up by the table's 300 rows, as an index from the end), narrows both to a
  shorter float format, turns "the French id is not 0" into a float mask, and narrows the weight. On the extended reals
  the changes of format are the identity, so the four arrays the region's windows read are, as functions of the
  program's arguments, exactly the arrays the reference forms by the same host operations: its two gathers, its mask
  and its weight argument. They are named here by the reference's stages and never opened.
-/
import proofs.«146319_j87522843559291_1_alg».proof.Proof.Gen.KernelIdeal.Frame
import proofs.«146319_j87522843559291_1_alg».proof.Proof.Gen.ReferenceIdeal.Read
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The first window's array: the table's rows at the French ids. -/
theorem entry_fr (c : Dev nD) :
    (V m c main_v7 : S1024x64x512.Idx → EReal)
      = Cert.ReferenceIdeal.Read.val_main_v6 (F := Ideal) (m ((c : Thread nD τ).loc main_arg1)) (m ((c : Thread nD τ).loc main_arg2)) := by
  dsimp only [Gen.V, Gen.hostOps0]
  after_results
  rfl

/-- The second window's array: the table's rows at the English ids. -/
theorem entry_en (c : Dev nD) :
    (V m c main_v15 : S1024x64x512.Idx → EReal)
      = Cert.ReferenceIdeal.Read.val_main_v22 (F := Ideal) (m ((c : Thread nD τ).loc main_arg0)) (m ((c : Thread nD τ).loc main_arg2)) := by
  dsimp only [Gen.V, Gen.hostOps0]
  after_results
  rfl

/-- The third window's array: the mask of the French ids that are not 0. -/
theorem entry_mask (c : Dev nD) :
    (V m c main_v18 : S1024x64.Idx → EReal)
      = Cert.ReferenceIdeal.Read.val_main_v9 (F := Ideal) (m ((c : Thread nD τ).loc main_arg1)) := by
  dsimp only [Gen.V, Gen.hostOps0]
  after_results
  rfl

/-- The fourth window's array: the weight. -/
theorem entry_w (c : Dev nD) :
    (V m c main_v19 : S512x512.Idx → EReal) = m ((c : Thread nD τ).loc main_arg3) := by
  dsimp only [Gen.V, Gen.hostOps0]
  after_results
  rfl

end Cert.KernelIdeal.Entry

end
-- ==== Proof.Blocks.lean ====
/-
  From the 32 blocks to the whole result array.

  The grid has 32 points. Point `t` loads batches `32 t … 32 t + 31` of the two embedded arrays and of the mask, and
  the whole weight, and writes back batches `32 t … 32 t + 31` of the result: every window's block index on the batch
  axis is `t` and is 0 on the other axes (decided over the 32 points). An entry of block `t` at `(b, s, d)`
  therefore sits in its array at `(32 t + b, s, d)`. The body's value depends, batch by batch, on the same batch of its
  operands only, so what point `t` writes back is block `t` of ONE function of the whole operand arrays,
  `Attn.attn`. The blocks `32 t … 32 t + 31`, `t < 32`, cover the 1024 batches — batch `n` is in block `n / 32` —, so
  after the run the result array is that function everywhere.
-/
import proofs.«146319_j87522843559291_1_alg».proof.Proof.Gen.KernelIdeal.Value
import proofs.«146319_j87522843559291_1_alg».proof.Proof.BodyValue
import proofs.«146319_j87522843559291_1_alg».proof.Proof.Entry

set_option maxRecDepth 16384

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps, decided over the grid: on the batch axis every moving window's block index is the
    point's number; every other block index is 0. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The whole result as a function of the arrays the region finds. -/
abbrev result (c : Dev nD) : (⟨3, ![1024, 64, 512]⟩ : Shape).Idx → EReal :=
  attn (V m c main_v7) (V m c main_v15) (V m c main_v18) (V m c main_v19)

/-- The body's value at point `t`, at a block index, is the whole-array function where that index sits. -/
theorem block_value (c : Dev nD) (t : Fin cfg0.N) (y : S32x64x512.Idx) :
    k0_pay1 (iblk m c 0 t) (iblk m c 1 t) (iblk m c 2 t) (iblk m c 3 t) y
      = result m c (((cfg0.win 4).blk t).view.emb y) := by
  obtain ⟨a00, a01, a02, a10, a11, a12, a20, a21, a30, a31, a40, a41, a42⟩ := index_facts t
  refine Cert.KernelIdeal.Body.pay_block _ _ _ _ _ _ _ _ t.val ?_ ?_ ?_ ?_ y _ ?_ ?_ ?_
  · intro b s d j h0 h1 h2
    show V m c main_v7 (((cfg0.win 0).blk t).view.emb (ix3 b s d)) = V m c main_v7 j
    refine congrArg _ (funext fun a => Fin.ext ?_)
    match a with
    | ⟨0, _⟩ => show win0_0.index t (0 : Fin 3) * 32 + 1 * b.val = (j 0).val; omega
    | ⟨1, _⟩ => show win0_0.index t (1 : Fin 3) * 64 + 1 * s.val = (j 1).val; omega
    | ⟨2, _⟩ => show win0_0.index t (2 : Fin 3) * 512 + 1 * d.val = (j 2).val; omega
  · intro b s d j h0 h1 h2
    show V m c main_v15 (((cfg0.win 1).blk t).view.emb (ix3 b s d)) = V m c main_v15 j
    refine congrArg _ (funext fun a => Fin.ext ?_)
    match a with
    | ⟨0, _⟩ => show win0_1.index t (0 : Fin 3) * 32 + 1 * b.val = (j 0).val; omega
    | ⟨1, _⟩ => show win0_1.index t (1 : Fin 3) * 64 + 1 * s.val = (j 1).val; omega
    | ⟨2, _⟩ => show win0_1.index t (2 : Fin 3) * 512 + 1 * d.val = (j 2).val; omega
  · intro b k j h0 h1
    show V m c main_v18 (((cfg0.win 2).blk t).view.emb (ix2 b k)) = V m c main_v18 j
    refine congrArg _ (funext fun a => Fin.ext ?_)
    match a with
    | ⟨0, _⟩ => show win0_2.index t (0 : Fin 2) * 32 + 1 * b.val = (j 0).val; omega
    | ⟨1, _⟩ => show win0_2.index t (1 : Fin 2) * 64 + 1 * k.val = (j 1).val; omega
  · intro e f j h0 h1
    show V m c main_v19 (((cfg0.win 3).blk t).view.emb (ix2 e f)) = V m c main_v19 j
    refine congrArg _ (funext fun a => Fin.ext ?_)
    match a with
    | ⟨0, _⟩ => show win0_3.index t (0 : Fin 2) * 512 + 1 * e.val = (j 0).val; omega
    | ⟨1, _⟩ => show win0_3.index t (1 : Fin 2) * 512 + 1 * f.val = (j 1).val; omega
  · show win0_4.index t (0 : Fin 3) * 32 + 1 * (y 0).val = t.val * 32 + (y 0).val; omega
  · show win0_4.index t (1 : Fin 3) * 64 + 1 * (y 1).val = (y 1).val; omega
  · show win0_4.index t (2 : Fin 3) * 512 + 1 * (y 2).val = (y 2).val; omega

/-- WHAT POINT `t` WRITES BACK is block `t` of the whole-array function. -/
theorem flushed_eq (c : Dev nD) (t : Fin cfg0.N) :
    (dats m 0 c).flushed 4 t = ((cfg0.win 4).blk t).view.read (Elt Ideal) (result m c) := by
  rw [flushed4]
  unfold out0_4
  rw [View.canon_unit_zero zeros3]
  simp only [View.ld_unit_zero (S := S32x64x512) zeros3, View.ld_unit_zero (S := S32x64) zeros2,
    View.ld_unit_zero (S := S512x512) zeros2]
  funext y
  exact block_value m c t y

/-- An index of the result array is in point `t`'s block iff each coordinate is in the block's range on its axis. -/
theorem mem_block (t : Fin cfg0.N) (i : S1024x64x512.Idx) :
    i ∈ ((cfg0.win 4).blk t).view.set ↔ ∀ a : Fin 3, win0_4.index t a * S32x64x512.size a ≤ (i a).val
      ∧ (i a).val < win0_4.index t a * S32x64x512.size a + S32x64x512.size a := by
  show i ∈ ((View.whole main_v20).slice (win0_4.rect t)).set ↔ _
  rw [View.set_slice_whole, Rect.mem_set_unit]
  exact Iff.rfl

/-- Every index of the result array is in some point's block: batch `n` is written by point `n / 32`. -/
theorem cover (i : S1024x64x512.Idx) :
    ∃ t : Fin cfg0.N, (cfg0.win 4).flush t = true ∧ i ∈ ((cfg0.win 4).blk t).view.set := by
  have hi0 : (i 0).val < 1024 := (i 0).isLt
  have hi1 : (i 1).val < 64 := (i 1).isLt
  have hi2 : (i 2).val < 512 := (i 2).isLt
  have hlt : (i 0).val / 32 < cfg0.N := by show _ < grid0.N; rw [N_0]; omega
  obtain ⟨a00, a01, a02, a10, a11, a12, a20, a21, a30, a31, a40, a41, a42⟩ := index_facts ⟨(i 0).val / 32, hlt⟩
  refine ⟨⟨(i 0).val / 32, hlt⟩, flush0_4 _, ?_⟩
  rw [mem_block]
  intro a
  match a with
  | ⟨0, _⟩ =>
    show win0_4.index ⟨(i 0).val / 32, hlt⟩ (0 : Fin 3) * 32 ≤ (i 0).val ∧ (i 0).val < win0_4.index ⟨(i 0).val / 32, hlt⟩ (0 : Fin 3) * 32 + 32
    rw [a40]; show (i 0).val / 32 * 32 ≤ (i 0).val ∧ (i 0).val < (i 0).val / 32 * 32 + 32; omega
  | ⟨1, _⟩ =>
    show win0_4.index ⟨(i 0).val / 32, hlt⟩ (1 : Fin 3) * 64 ≤ (i 1).val ∧ (i 1).val < win0_4.index ⟨(i 0).val / 32, hlt⟩ (1 : Fin 3) * 64 + 64
    rw [a41]; omega
  | ⟨2, _⟩ =>
    show win0_4.index ⟨(i 0).val / 32, hlt⟩ (2 : Fin 3) * 512 ≤ (i 2).val ∧ (i 2).val < win0_4.index ⟨(i 0).val / 32, hlt⟩ (2 : Fin 3) * 512 + 512
    rw [a42]; omega

/-- THE RESULT ARRAY after the run: the whole-array function of the arrays the region found. -/
theorem final (c : Dev nD) : (dats m 0 c).arrAt 4 cfg0.N = result m c :=
  (dats m 0 c).arrAt_eq_of_cover 4 (result m c) (fun t _ => flushed_eq m c t) cover

/-- The same with the region's arrays named by the host stages that wrote them. -/
theorem final_args (c : Dev nD) :
    (dats m 0 c).arrAt 4 cfg0.N
      = attn (Cert.ReferenceIdeal.Read.val_main_v6 (F := Ideal) (m ((c : Thread nD τ).loc main_arg1)) (m ((c : Thread nD τ).loc main_arg2)))
          (Cert.ReferenceIdeal.Read.val_main_v22 (F := Ideal) (m ((c : Thread nD τ).loc main_arg0)) (m ((c : Thread nD τ).loc main_arg2)))
          (Cert.ReferenceIdeal.Read.val_main_v9 (F := Ideal) (m ((c : Thread nD τ).loc main_arg1)))
          (m ((c : Thread nD τ).loc main_arg3)) := by
  rw [final]
  unfold result
  rw [Cert.KernelIdeal.Entry.entry_fr, Cert.KernelIdeal.Entry.entry_en, Cert.KernelIdeal.Entry.entry_mask, Cert.KernelIdeal.Entry.entry_w]

/-- THE KERNEL'S RUN: every weakly fair execution terminates with the result array at the whole-array function of
    the arguments' host stages, the arguments unchanged. -/
theorem run : θ_run defs (onTc (τ := τ) (main (F := Ideal))) ⟨m, fun _ => 0, ρ⟩ fun r => ∀ c : Dev nD,
      r.2.mem ((c : Thread nD τ).loc main_v20)
        = attn (Cert.ReferenceIdeal.Read.val_main_v6 (F := Ideal) (m ((c : Thread nD τ).loc main_arg1)) (m ((c : Thread nD τ).loc main_arg2)))
            (Cert.ReferenceIdeal.Read.val_main_v22 (F := Ideal) (m ((c : Thread nD τ).loc main_arg0)) (m ((c : Thread nD τ).loc main_arg2)))
            (Cert.ReferenceIdeal.Read.val_main_v9 (F := Ideal) (m ((c : Thread nD τ).loc main_arg1)))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_args m c), (h c).2⟩) (run_blocks m ρ)

end Cert.KernelIdeal.Blocks

end
-- ==== Proof.RefValue.lean ====
/-
  The reference computes `Attn.attn`.

  The reference gathers the two embedded arrays and forms the mask on the host, then takes three `dot_general`s: the
  projection (contracting the embedding axis against the weight), the scores (contracting the projected axis of
  query rows against key rows, batch by batch) and the weighted rows (contracting the key axis, batch by batch),
  with the mask broadcast over the query axis and multiplied in between, and adds the residual. Read at an index, each
  `dot_general` is the finite sum over its contracted axis and the broadcasts read the mask at `(b, k)`, so the
  result at `(b, q, d)` is the one-batch function of batch `b` of the gathered arrays, of the mask and of the weight.
  The gathers themselves are never opened: they enter as the arrays the function is applied to.
-/
import proofs.«146319_j87522843559291_1_alg».proof.Proof.Gen.ReferenceIdeal.Read
import proofs.«146319_j87522843559291_1_alg».proof.Proof.Spec

noncomputable section

open scoped BigOperators

namespace Cert.ReferenceIdeal.RefValue

open Cert.ReferenceIdeal Cert.ReferenceIdeal.Read Idealize.ShloMosaic Idealize.ShloMosaic.ValueIdx Cert.Attn

variable (x0 x1 : (⟨S1024x64, .i32⟩ : BufTy).Contents (Elt Ideal)) (x2 : (⟨S300x512, .f32⟩ : BufTy).Contents (Elt Ideal))
  (x3 : (⟨S512x512, .f32⟩ : BufTy).Contents (Elt Ideal))

/-- The reference's projection at `(b, s, e)`: the projection of batch `b` of the gathered tokens. -/
theorem proj_apply (b : Fin 1024) (s : Fin 64) (e : Fin 512) :
    val_main_v10 (F := Ideal) x1 x2 x3 (ix3 b s e)
      = proj (fun s d => val_main_v6 (F := Ideal) x1 x2 (ix3 b s d)) (fun d f => x3 (ix2 d f)) s e := by
  rw [val_main_v10_apply]
  unfold proj
  refine Finset.sum_congr rfl fun k _ => ?_
  have el : lidx_main_v10 (ix3 b s e) k = ix3 b s k :=
    funext fun a => Fin.ext (by match a with | ⟨0, _⟩ => rfl | ⟨1, _⟩ => rfl | ⟨2, _⟩ => rfl)
  have er : ridx_main_v10 (ix3 b s e) k = ix2 k e :=
    funext fun a => Fin.ext (by match a with | ⟨0, _⟩ => rfl | ⟨1, _⟩ => rfl)
  rw [el, er]

/-- The reference's masked scores at `(b, q, k)`. -/
theorem score_apply (b : Fin 1024) (q k : Fin 64) :
    val_main_v14 (F := Ideal) x1 x2 x3 (ix3 b q k)
      = score (fun s d => val_main_v6 (F := Ideal) x1 x2 (ix3 b s d)) (fun d f => x3 (ix2 d f))
          (fun k => val_main_v9 (F := Ideal) x1 (ix2 b k)) q k := by
  rw [val_main_v14_apply, val_main_v11_apply, val_main_v13_apply, val_main_v12_apply]
  show (∑ e : Fin 512, _) * _ = _
  unfold score
  have em : idx_main_v12 (idx_main_v13 (ix3 b q k)) = ix2 b k :=
    funext fun a => Fin.ext (by match a with | ⟨0, _⟩ => rfl | ⟨1, _⟩ => rfl)
  rw [em]
  refine congrArg (· * val_main_v9 (F := Ideal) x1 (ix2 b k)) ?_
  refine Finset.sum_congr rfl fun e _ => ?_
  have el : lidx_main_v11 (ix3 b q k) e = ix3 b q e :=
    funext fun a => Fin.ext (by match a with | ⟨0, _⟩ => rfl | ⟨1, _⟩ => rfl | ⟨2, _⟩ => rfl)
  have er : ridx_main_v11 (ix3 b q k) e = ix3 b k e :=
    funext fun a => Fin.ext (by match a with | ⟨0, _⟩ => rfl | ⟨1, _⟩ => rfl | ⟨2, _⟩ => rfl)
  rw [el, er, proj_apply, proj_apply]

/-- THE REFERENCE'S RESULT is the whole-array function of the two gathered arrays, the mask and the weight. -/
theorem result_eq :
    val_main_v23 (F := Ideal) x0 x1 x2 x3
      = attn (val_main_v6 (F := Ideal) x1 x2) (val_main_v22 (F := Ideal) x0 x2) (val_main_v9 (F := Ideal) x1) x3 := by
  funext i
  obtain ⟨b, q, d, rfl⟩ : ∃ (b : Fin 1024) (q : Fin 64) (d : Fin 512), i = ix3 b q d := ⟨i 0, i 1, i 2, eq_ix3 i⟩
  rw [attn_ix3, val_main_v23_apply, val_main_v15_apply]
  unfold attnAt attnRow
  show val_main_v22 (F := Ideal) x0 x2 (ix3 b q d) + _ = _
  refine congrArg (val_main_v22 (F := Ideal) x0 x2 (ix3 b q d) + ·) ?_
  refine Finset.sum_congr rfl fun k _ => ?_
  have el : lidx_main_v15 (ix3 b q d) k = ix3 b q k :=
    funext fun a => Fin.ext (by match a with | ⟨0, _⟩ => rfl | ⟨1, _⟩ => rfl | ⟨2, _⟩ => rfl)
  have er : ridx_main_v15 (ix3 b q d) k = ix3 b k d :=
    funext fun a => Fin.ext (by match a with | ⟨0, _⟩ => rfl | ⟨1, _⟩ => rfl | ⟨2, _⟩ => rfl)
  rw [el, er, score_apply, proj_apply]

end Cert.ReferenceIdeal.RefValue

end
-- ==== Proof.lean ====
/-
  A fused attention block without softmax — one shared projection of the embedded tokens used as query, key and
  value, scores multiplied by a key mask, the masked scores applied to the projected rows, a residual added — as a
  kernel over 32 blocks of 32 batches, against the same computation written as three whole-array contractions.

  On the extended reals both programs compute, at batch `b`, row `q`, column `d`,

      y (b, q, d) + ∑ k, ((∑ e, P (b, q, e) * P (b, k, e)) * μ (b, k)) * P (b, k, d),   P (b, s, e) = ∑ d, x (b, s, d) * w (d, e),

  with `x`, `y` the embedding table's rows at the French and English word ids, `μ` the mask of the French ids
  that are not 0 and `w` the weight (Proof/Spec.lean). The kernel narrows its operands to a shorter float format and
  accumulates in the wider one; on the extended reals a change of format is the identity, a product into a zero
  accumulator is the finite sum over the contracted axis, and finite sums of extended reals do not depend on order or
  grouping. The two programs perform the multiplications and the additions of this formula in the same arrangement, so no
  law beyond these is used and the finiteness of the inputs is never opened.

  The parts: the kernel body's stored value at an index of a block (Proof/BodyValue.lean); the host operations before the
  region, named by the stages the reference shares with them (Proof/Entry.lean); the 32 blocks assembled into the
  whole array (Proof/Blocks.lean); the reference's result read at an index (Proof/RefValue.lean). The three frames are
  the generated ones; the idealization rewrote nothing, so that claim is trivial.
-/
import proofs.«146319_j87522843559291_1_alg».proof.Defs
import proofs.«146319_j87522843559291_1_alg».proof.Proof.Gen.Kernel
import proofs.«146319_j87522843559291_1_alg».proof.Proof.Gen.Kernel.Skeleton
import proofs.«146319_j87522843559291_1_alg».proof.Proof.Gen.Kernel.Launch
import proofs.«146319_j87522843559291_1_alg».proof.Proof.Gen.Kernel.Points
import proofs.«146319_j87522843559291_1_alg».proof.Proof.Gen.Kernel.Frame
import proofs.«146319_j87522843559291_1_alg».proof.Proof.Gen.KernelIdeal
import proofs.«146319_j87522843559291_1_alg».proof.Proof.Gen.KernelIdeal.Skeleton
import proofs.«146319_j87522843559291_1_alg».proof.Proof.Gen.KernelIdeal.Launch
import proofs.«146319_j87522843559291_1_alg».proof.Proof.Gen.KernelIdeal.Points
import proofs.«146319_j87522843559291_1_alg».proof.Proof.Gen.KernelIdeal.Frame
import proofs.«146319_j87522843559291_1_alg».proof.Proof.Gen.ReferenceIdeal
import proofs.«146319_j87522843559291_1_alg».proof.Proof.Gen.Pre_finite_inputs
import proofs.«146319_j87522843559291_1_alg».proof.Proof.Gen.KernelIdeal.Value
import proofs.«146319_j87522843559291_1_alg».proof.Proof.Gen.ReferenceIdeal.Run
import proofs.«146319_j87522843559291_1_alg».proof.Proof.Gen.ReferenceIdeal.Read
import proofs.«146319_j87522843559291_1_alg».proof.Proof.Blocks
import proofs.«146319_j87522843559291_1_alg».proof.Proof.RefValue
import Idealize.ShloMosaic.Adequacy
import Idealize.ShloMosaic.Init

noncomputable section

namespace Cert.Proof

open Idealize.ShloMosaic Idealize.SL.Sem Cert.Kernel

/-- The word-level kernel runs and leaves its arguments as they were: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with the result array at `Attn.attn` of the same
    four arrays: the kernel by the assembly of its blocks, the reference by its run read at an index. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
